-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S16384x2048 .f32) (main_arg2 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S16384x2048 : Shape := ⟨2, ![16384, 2048]⟩
abbrev S2048x2048 : Shape := ⟨2, ![2048, 2048]⟩
abbrev S16384 : Shape := ⟨1, ![16384]⟩
abbrev S512x2048 : Shape := ⟨2, ![512, 2048]⟩
abbrev S512 : Shape := ⟨1, ![512]⟩

abbrev nBuf : Space → Nat
  | .hbm => 6
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S16384, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S512, .f32⟩
  | .local _ .vmem, ⟨6, _⟩ => ⟨S512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x2048_S2048x2048_1_0 : S2048x2048.Transposes [1, 0] S2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S512x2048_S512 : S512x2048.Reduces [1] S512
  inb_S512_S512_0 : ∀ a, (![0] : Fin 1 → Nat) a + S512.size a ≤ S512.size a
  h_S512 : 0 < S512.numel
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S16384.size a
  hwx0_3 : ∀ i : grid0.Coords, EltTy.bits .f32 = 32 ∨ (Rect.block (s := S16384) S512.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S_ : Shape := ⟨0, ![]⟩
abbrev S16384 : Shape := ⟨1, ![16384]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384, .f32⟩
  | .hbm, ⟨18, _⟩ => ⟨S16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S_S16384 : S_.BroadcastsInDim S16384 (![] : Fin 0 → Fin S16384.rank)
  dot_S16384x2048_S2048x2048_S16384x2048_1_1_0_0_n_n_wf : DotDims.WF S16384x2048 S2048x2048 S16384x2048 [1] [1] [0] [0] [] []

variable [Facts₀]

def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf

class Facts : Prop extends Facts₀ where

variable [Facts]
-- ==== Proof.Metric.lean ====
/-
  The quantity both programs compute, row by row, on the extended reals.

  For one row of the batch let `x` be the row of the first argument, `v` the row of the second (the velocity) and
  `W` the weight matrix. The score of the row is `s e = ∑ d, x d · W e d`, and the row's value is

      ‖v‖² − (s · v)² / (1 + ‖s‖²)

  with `‖v‖² = ∑ e, v e · v e`, `s · v = ∑ e, s e · v e`, `‖s‖² = ∑ e, s e · s e`, the quotient the
  extended reals' total division. The result array holds this value at every row of the batch.
-/
import Idealize.ShloMosaic.PureOps.Ideal
import Idealize.ShloMosaic.Lib.ValueIdx

noncomputable section

namespace Cert.Metric

open Idealize.ShloMosaic Idealize.ShloMosaic.ValueIdx

/-- The score of one row: `s e = ∑ d, x d · W e d`. -/
def score (x : Fin 2048 → EReal) (W : Fin 2048 → Fin 2048 → EReal) (e : Fin 2048) : EReal :=
  ∑ d : Fin 2048, x d * W e d

/-- One row's value `‖v‖² − (s · v)² / (1 + ‖s‖²)`; the literal `1` is kept as the f32 word both programs print. -/
def rowValue (x v : Fin 2048 → EReal) (W : Fin 2048 → Fin 2048 → EReal) : EReal :=
  (∑ e : Fin 2048, v e * v e)
    - Ideal.div ((∑ e : Fin 2048, score x W e * v e) * (∑ e : Fin 2048, score x W e * v e))
        (Ideal.ofBits .f32 0x3F800000#32 + ∑ e : Fin 2048, score x W e * score x W e)

/-- The whole result: row `b` of the batch holds the row value of row `b` of the two [16384, 2048] arguments
    against the [2048, 2048] weight. -/
def metric (X V : (⟨2, ![16384, 2048]⟩ : Shape).Idx → EReal) (W : (⟨2, ![2048, 2048]⟩ : Shape).Idx → EReal) :
    (⟨1, ![16384]⟩ : Shape).Idx → EReal := fun i =>
  rowValue (fun d => X (ix2 (i 0) d)) (fun e => V (ix2 (i 0) e)) (fun e d => W (ix2 e d))

end Cert.Metric

end
-- ==== Proof.KernelRow.lean ====
/-
  The kernel body's stored value, read at one row of its block, is the row value of `Metric.lean`.

  The body loads a [512, 2048] block of each of the two arguments and the whole [2048, 2048] transposed weight,
  multiplies the first block into the weight on the matrix unit (a change of float format is the identity on the
  extended reals, a product into the zero accumulator is the plain sum over the contracted axis), takes three lane sums
  per row — `∑ e, s·s`, `∑ e, s·v`, `∑ e, v·v` — and stores `‖v‖² − (s·v)² / (1 + ‖s‖²)` for each of its 512 rows.
-/
import proofs.«104427_j63453846831508_1_alg».proof.Proof.Gen.KernelIdeal.Skeleton
import proofs.«104427_j63453846831508_1_alg».proof.Proof.Metric
import Idealize.ShloMosaic.PureOps.Ideal.Laws
import Idealize.ShloMosaic.Lib.ValueIdx
import Idealize.ShloMosaic.Lib.Pipeline.Value

noncomputable section

namespace Cert.KernelIdeal.RowValue

open Cert.KernelIdeal Cert.KernelIdeal.Gen Idealize.ShloMosaic Idealize.ShloMosaic.ValueIdx

/-- A lane sum over the second axis of a [512, 2048] vector, read at row `r`: the sum of the row's 2048 entries. -/
theorem laneSum_apply (src : FVec Ideal S512x2048 .f32) (r : Fin 512) :
    multiReduction (F := Ideal) .add [1] S512 src 0x00000000#32 reduces_S512x2048_S512 (.inl rfl) rfl (ix1 r)
      = ∑ e : Fin 2048, src (ix2 r e) := by
  refine (Ideal.multiReduction_add_single src 0x00000000#32 reduces_S512x2048_S512 (.inl rfl) rfl (ix1 r)).trans ?_
  exact Finset.sum_congr rfl fun e _ => congrArg src
    (funext fun a => Fin.ext (by match a with | ⟨0, _⟩ => rfl | ⟨1, _⟩ => rfl))

/-- The product's left operand index at output `(r, e)`: row `r`, the contracted coordinate. -/
theorem lhs_row (j : S512x2048.Idx) (q : (dot_S512x2048_S2048x2048_S512x2048_1_0_0_1_n_n).contr.Idx) :
    ((dot_S512x2048_S2048x2048_S512x2048_1_0_0_1_n_n).lhsIdx j q 0).val = (j 0).val := by
  unfold DotDims.lhsIdx
  rw [dif_neg (show ¬(0 : Fin S512x2048.rank) ∈ (dot_S512x2048_S2048x2048_S512x2048_1_0_0_1_n_n).lhsBatch by decide),
    dif_pos (show (0 : Fin S512x2048.rank) ∈ (dot_S512x2048_S2048x2048_S512x2048_1_0_0_1_n_n).lhsNonContracting by decide)]
  rfl

/-- The product's right operand index there: the contracted coordinate, column `e`. -/
theorem rhs_col (j : S512x2048.Idx) (q : (dot_S512x2048_S2048x2048_S512x2048_1_0_0_1_n_n).contr.Idx) :
    ((dot_S512x2048_S2048x2048_S512x2048_1_0_0_1_n_n).rhsIdx j q 1).val = (j 1).val := by
  unfold DotDims.rhsIdx
  rw [dif_neg (show ¬(1 : Fin S2048x2048.rank) ∈ (dot_S512x2048_S2048x2048_S512x2048_1_0_0_1_n_n).rhsBatch by decide),
    dif_pos (show (1 : Fin S2048x2048.rank) ∈ (dot_S512x2048_S2048x2048_S512x2048_1_0_0_1_n_n).rhsNonContracting by decide)]
  rfl

/-- The matrix product into the zero accumulator, read at `(r, e)`: `∑ d, l (r, d) · w (d, e)`. -/
theorem matmul_apply_row (l : FVec Ideal S512x2048 .bf16) (w : FVec Ideal S2048x2048 .bf16) (r : Fin 512) (e : Fin 2048) :
    matmul (F := Ideal) dot_S512x2048_S2048x2048_S512x2048_1_0_0_1_n_n none l w (constant S512x2048 .f32 0x00000000#32) (ix2 r e)
      = ∑ d : Fin 2048, l (ix2 r d) * w (ix2 d e) := by
  refine (Ideal.matmul_constant_zero_apply dot_S512x2048_S2048x2048_S512x2048_1_0_0_1_n_n none l w (ix2 r e)).trans ?_
  rw [← Equiv.sum_comp (contrEquiv1 dot_S512x2048_S2048x2048_S512x2048_1_0_0_1_n_n 2048 rfl rfl).symm]
  refine Finset.sum_congr rfl fun d _ => ?_
  have hd := contrEquiv1_symm_val dot_S512x2048_S2048x2048_S512x2048_1_0_0_1_n_n 2048 rfl rfl d
  have el : (dot_S512x2048_S2048x2048_S512x2048_1_0_0_1_n_n).lhsIdx (ix2 r e)
      ((contrEquiv1 dot_S512x2048_S2048x2048_S512x2048_1_0_0_1_n_n 2048 rfl rfl).symm d) = ix2 r d :=
    funext fun a => Fin.ext (by
      match a with
      | ⟨0, _⟩ => exact lhs_row _ _
      | ⟨1, _⟩ => exact ((dot_S512x2048_S2048x2048_S512x2048_1_0_0_1_n_n).lhsIdx_val_of_single rfl _ _).trans hd)
  have er : (dot_S512x2048_S2048x2048_S512x2048_1_0_0_1_n_n).rhsIdx (ix2 r e)
      ((contrEquiv1 dot_S512x2048_S2048x2048_S512x2048_1_0_0_1_n_n 2048 rfl rfl).symm d) = ix2 d e :=
    funext fun a => Fin.ext (by
      match a with
      | ⟨0, _⟩ => exact ((dot_S512x2048_S2048x2048_S512x2048_1_0_0_1_n_n).rhsIdx_val_of_single rfl _ _).trans hd
      | ⟨1, _⟩ => exact rhs_col _ _)
  rw [el, er]

/-- THE BODY'S STORED VALUE at row `r` of its block: the row value of the block's row `r` of the first argument, row `r`
    of the second, and the loaded weight read transposed (the loaded [2048, 2048] array is indexed contracted-axis first). -/
theorem pay_apply (x0 x5 : Vec Ideal S512x2048 .f32) (w : Vec Ideal S2048x2048 .bf16) (r : Fin 512) :
    k0_pay1 (F := Ideal) x0 w x5 (ix1 r)
      = Cert.Metric.rowValue (fun d => x0 (ix2 r d)) (fun e => x5 (ix2 r e)) (fun e d => w (ix2 d e)) := by
  unfold k0_pay1
  dsimp only
  rw [shapeCast_self]
  show (multiReduction (F := Ideal) .add [1] S512 (mulf x5 x5) 0x00000000#32 reduces_S512x2048_S512 (.inl rfl) rfl (ix1 r))
      - Ideal.div
        ((multiReduction (F := Ideal) .add [1] S512 (mulf (matmul (F := Ideal) dot_S512x2048_S2048x2048_S512x2048_1_0_0_1_n_n none (truncf .bf16 x0 bitsLt_bf16_f32) w (constant S512x2048 .f32 0x00000000#32)) x5) 0x00000000#32 reduces_S512x2048_S512 (.inl rfl) rfl (ix1 r))
          * (multiReduction (F := Ideal) .add [1] S512 (mulf (matmul (F := Ideal) dot_S512x2048_S2048x2048_S512x2048_1_0_0_1_n_n none (truncf .bf16 x0 bitsLt_bf16_f32) w (constant S512x2048 .f32 0x00000000#32)) x5) 0x00000000#32 reduces_S512x2048_S512 (.inl rfl) rfl (ix1 r)))
        (Ideal.ofBits .f32 0x3F800000#32
          + multiReduction (F := Ideal) .add [1] S512 (mulf (matmul (F := Ideal) dot_S512x2048_S2048x2048_S512x2048_1_0_0_1_n_n none (truncf .bf16 x0 bitsLt_bf16_f32) w (constant S512x2048 .f32 0x00000000#32)) (matmul (F := Ideal) dot_S512x2048_S2048x2048_S512x2048_1_0_0_1_n_n none (truncf .bf16 x0 bitsLt_bf16_f32) w (constant S512x2048 .f32 0x00000000#32))) 0x00000000#32 reduces_S512x2048_S512 (.inl rfl) rfl (ix1 r))
    = _
  rw [laneSum_apply, laneSum_apply, laneSum_apply]
  simp only [mulf_apply, matmul_apply_row, truncf_apply]
  rfl

end Cert.KernelIdeal.RowValue

end
-- ==== Proof.KernelArray.lean ====
/-
  From the kernel's blocks to its result array.

  The grid has 32 points; point `t` stages rows `512·t … 512·t + 511` of the two [16384, 2048] arguments, the whole
  transposed weight (prepared on the host: the weight transposed, then narrowed to bf16 — the identity on the
  extended reals), and writes back rows `512·t … 512·t + 511` of the [16384] result. So what point `t` writes back
  is block `t` of ONE function of the arguments, `Metric.metric`, and the 32 blocks tile the result: after the run
  the result array is `Metric.metric` of the three arguments.
-/
import proofs.«104427_j63453846831508_1_alg».proof.Proof.Gen.KernelIdeal.Value
import proofs.«104427_j63453846831508_1_alg».proof.Proof.KernelRow
import proofs.«104427_j63453846831508_1_alg».proof.Proof.Metric
import Idealize.ShloMosaic.Lib.Pipeline.Value
import Idealize.ShloMosaic.Lib.ValueLayout
import Idealize.ShloMosaic.Lib.ValueIdx
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-! ## The weight as the region finds it -/

/-- The staged weight array is the host's transpose of the weight argument, narrowed to bf16. -/
theorem V_weight (c : Dev nD) :
    (V m c main_v1 : S2048x2048.Idx → EReal)
      = truncf (F := Ideal) .bf16 (transpose S2048x2048 [1, 0] (m ((c : Thread nD τ).loc main_arg2) : S2048x2048.Idx → EReal)
          Facts₀.transposes_S2048x2048_S2048x2048_1_0) Facts₀.bitsLt_bf16_f32 := by
  dsimp only [Gen.V, Gen.hostOps0]
  after_results

/-- So its entry `(d, e)` is the weight's entry `(e, d)`. -/
theorem V_weight_apply (c : Dev nD) (d e : Fin 2048) :
    (V m c main_v1 : S2048x2048.Idx → EReal) (ix2 d e) = (m ((c : Thread nD τ).loc main_arg2) : S2048x2048.Idx → EReal) (ix2 e d) := by
  rw [V_weight]
  exact transpose_ix2_apply _ _ d e

/-! ## The printed index maps over the grid -/

/-- Point `t` stages row block `t` of each argument (column block 0), the one block of the weight, and writes back
    block `t` of the result: decided over the 32 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-! ## Each input block read off its array -/

/-- Entry `(r, d)` of the first argument's block at point `t` is entry `(512·t + r, d)` of the array. -/
theorem iblk0_apply (c : Dev nD) (t : Fin cfg0.N) (r : Fin 512) (d : Fin 2048) (i : S16384x2048.Idx)
    (hi0 : (i 0).val = t.val * 512 + r.val) (hi1 : (i 1).val = d.val) :
    (iblk m c 0 t : Vec Ideal S512x2048 .f32) (ix2 r d) = V m c main_arg0 i := by
  obtain ⟨e00, e01, -, -, -, -, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 512 + 1 * r.val = (i 0).val; omega
  | ⟨1, _⟩ => show win0_0.index t (1 : Fin 2) * 2048 + 1 * d.val = (i 1).val; omega

/-- Entry `(r, e)` of the second argument's block at point `t` is entry `(512·t + r, e)` of the array. -/
theorem iblk1_apply (c : Dev nD) (t : Fin cfg0.N) (r : Fin 512) (e : Fin 2048) (i : S16384x2048.Idx)
    (hi0 : (i 0).val = t.val * 512 + r.val) (hi1 : (i 1).val = e.val) :
    (iblk m c 1 t : Vec Ideal S512x2048 .f32) (ix2 r e) = V m c main_arg1 i := by
  obtain ⟨-, -, e10, e11, -, -, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 512 + 1 * r.val = (i 0).val; omega
  | ⟨1, _⟩ => show win0_1.index t (1 : Fin 2) * 2048 + 1 * e.val = (i 1).val; omega

/-- The weight's block at every point is the whole staged array. -/
theorem iblk2_apply (c : Dev nD) (t : Fin cfg0.N) (d e : Fin 2048) :
    (iblk m c 2 t : Vec Ideal S2048x2048 .bf16) (ix2 d e) = (V m c main_v1 : S2048x2048.Idx → EReal) (ix2 d e) := by
  obtain ⟨-, -, -, -, e20, e21, -⟩ := idx_facts t
  unfold iblk
  rw [View.read_apply]
  show V m c main_v1 _ = V m c main_v1 _
  refine congrArg (V m c main_v1) (funext fun a => Fin.ext ?_)
  match a with
  | ⟨0, _⟩ => show win0_2.index t (0 : Fin 2) * 2048 + 1 * d.val = d.val; omega
  | ⟨1, _⟩ => show win0_2.index t (1 : Fin 2) * 2048 + 1 * e.val = e.val; omega

/-! ## What a point writes back -/

/-- The body's stored value at entry `j` of its block, when the loaded blocks' rows are rows of `X`, `V` at the array
    row `i 0` and the loaded weight is `W` transposed: `Metric.metric X V W` at `i`. -/
theorem block_entry (X Vd : S16384x2048.Idx → EReal) (W : S2048x2048.Idx → EReal)
    (x0 x5 : Vec Ideal S512x2048 .f32) (w : Vec Ideal S2048x2048 .bf16) (j : S512.Idx) (i : S16384.Idx)
    (h0 : ∀ d : Fin 2048, x0 (ix2 (j 0) d) = X (ix2 (i 0) d))
    (h5 : ∀ e : Fin 2048, x5 (ix2 (j 0) e) = Vd (ix2 (i 0) e))
    (hw : ∀ d e : Fin 2048, w (ix2 d e) = W (ix2 e d)) :
    k0_pay1 (F := Ideal) x0 w x5 j = Cert.Metric.metric X Vd W i := by
  obtain ⟨r, rfl⟩ : ∃ r : Fin 512, j = ix1 r := ⟨j 0, eq_ix1 j⟩
  have e0 : (fun d : Fin 2048 => x0 (ix2 r d)) = fun d => X (ix2 (i 0) d) := funext h0
  have e5 : (fun e : Fin 2048 => x5 (ix2 r e)) = fun e => Vd (ix2 (i 0) e) := funext h5
  have ew : (fun e d : Fin 2048 => w (ix2 d e)) = fun e d => W (ix2 e d) := funext fun e => funext fun d => hw d e
  rw [RowValue.pay_apply, e0, e5, ew]
  rfl

/-- WHAT POINT `t` WRITES BACK is block `t` of `Metric.metric` of the arrays as the region finds them. -/
theorem flushed_eq (c : Dev nD) (t : Fin cfg0.N) :
    (dats m 0 c).flushed 3 t = ((cfg0.win 3).blk t).view.read (Elt Ideal)
      (Cert.Metric.metric (V m c main_arg0) (V m c main_arg1) (m ((c : Thread nD τ).loc main_arg2))) := by
  rw [Value.flushed3]
  unfold out0_3
  rw [View.canon_unit_zero hz1]
  simp only [View.ld_unit_zero (S := S512x2048) hz2, View.ld_unit_zero (S := S2048x2048) hz2]
  obtain ⟨-, -, -, -, -, -, e3⟩ := idx_facts t
  funext j
  show k0_pay1 (F := Ideal) (iblk m c 0 t) (iblk m c 2 t) (iblk m c 1 t) j
    = Cert.Metric.metric (V m c main_arg0) (V m c main_arg1) (m ((c : Thread nD τ).loc main_arg2)) (((cfg0.win 3).blk t).view.emb j)
  refine block_entry (V m c main_arg0) (V m c main_arg1) (m ((c : Thread nD τ).loc main_arg2))
    (iblk m c 0 t) (iblk m c 1 t) (iblk m c 2 t) j (((cfg0.win 3).blk t).view.emb j) (fun d => ?_) (fun e => ?_) (fun d e => ?_)
  · exact iblk0_apply m c t (j 0) d _
      (by show win0_3.index t (0 : Fin 1) * 512 + 1 * (j 0).val = t.val * 512 + (j 0).val; omega) rfl
  · exact iblk1_apply m c t (j 0) e _
      (by show win0_3.index t (0 : Fin 1) * 512 + 1 * (j 0).val = t.val * 512 + (j 0).val; omega) rfl
  · exact (iblk2_apply m c t d e).trans (V_weight_apply m c d e)

/-! ## The blocks tile the result -/

/-- An index of the result is in point `t`'s block iff its coordinate is in the block's range. -/
theorem mem_blk (t : Fin cfg0.N) (i : S16384.Idx) :
    i ∈ ((cfg0.win 3).blk t).view.set ↔ ∀ a : Fin 1, win0_3.index t a * S512.size a ≤ (i a).val ∧ (i a).val < win0_3.index t a * S512.size a + S512.size a := by
  show i ∈ ((View.whole main_v2).slice (win0_3.rect t)).set ↔ _
  rw [View.set_slice_whole, Rect.mem_set_unit]
  exact Iff.rfl

/-- Row `b` of the result lies in the block of point `b / 512`. -/
theorem cover (i : S16384.Idx) : ∃ t : Fin cfg0.N, (cfg0.win 3).flush t = true ∧ i ∈ ((cfg0.win 3).blk t).view.set := by
  have hi : (i 0).val < 16384 := (i 0).isLt
  have hN : cfg0.N = 32 := N_0
  refine ⟨⟨(i 0).val / 512, by rw [hN]; omega⟩, flush0_3 _, ?_⟩
  rw [mem_blk]
  obtain ⟨-, -, -, -, -, -, e3⟩ := idx_facts ⟨(i 0).val / 512, by rw [hN]; omega⟩
  intro a
  match a with
  | ⟨0, _⟩ =>
    show win0_3.index ⟨(i 0).val / 512, _⟩ (0 : Fin 1) * 512 ≤ (i 0).val ∧ (i 0).val < win0_3.index ⟨(i 0).val / 512, _⟩ (0 : Fin 1) * 512 + 512
    rw [e3]
    show (i 0).val / 512 * 512 ≤ (i 0).val ∧ (i 0).val < (i 0).val / 512 * 512 + 512
    omega

/-- THE RESULT ARRAY after the run: `Metric.metric` of the three argument arrays. -/
theorem final (c : Dev nD) : (dats m 0 c).arrAt 3 cfg0.N
    = Cert.Metric.metric (m ((c : Thread nD τ).loc main_arg0)) (m ((c : Thread nD τ).loc main_arg1)) (m ((c : Thread nD τ).loc main_arg2)) := by
  have h := (dats m 0 c).arrAt_eq_of_cover 3
    (Cert.Metric.metric (V m c main_arg0) (V m c main_arg1) (m ((c : Thread nD τ).loc main_arg2)))
    (fun t _ => flushed_eq m c t) cover
  rw [V_main_arg0, V_main_arg1] at h
  exact h

/-- The kernel's run, read: the result array at `Metric.metric` of the arguments, the arguments unchanged. -/
theorem run : θ_run defs (onTc (τ := τ) (main (F := Ideal))) ⟨m, fun _ => 0, ρ⟩ fun r => ∀ c : Dev nD,
      r.2.mem ((c : Thread nD τ).loc main_v2)
        = Cert.Metric.metric (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefRow.lean ====
/-
  The reference, read index by index at the extended reals, is the row value of `Metric.lean`.

  The reference contracts the two arguments' second axes (`s[b, e] = ∑ d, x[b, d] · W[e, d]`), takes the three row sums
  `∑ e, s·s`, `∑ e, s·v`, `∑ e, v·v` from the initial value `0`, and combines them as
  `‖v‖² − (s·v)² / (1 + ‖s‖²)`. Reading each stage at an index (the generated stage lemmas) leaves exactly the
  formula of `Metric.rowValue` with `0 +` in front of each row sum; `0 + a = a` on the extended reals.
-/
import proofs.«104427_j63453846831508_1_alg».proof.Proof.Gen.ReferenceIdeal.Read
import proofs.«104427_j63453846831508_1_alg».proof.Proof.Metric
import Idealize.ShloMosaic.PureOps.Ideal.Laws

noncomputable section

namespace Cert.ReferenceIdeal.RefValue

open Cert.ReferenceIdeal Cert.ReferenceIdeal.Read Idealize.ShloMosaic Idealize.ShloMosaic.ValueIdx

/-- The index each of the three row sums reads at: row `b`, column `k`. -/
theorem idx_row2 (b : Fin 16384) (k : Fin 2048) : idx_main_v2 (ix1 b) k = ix2 b k :=
  funext fun a => Fin.ext (by match a with | ⟨0, _⟩ => rfl | ⟨1, _⟩ => rfl)
theorem idx_row4 (b : Fin 16384) (k : Fin 2048) : idx_main_v4 (ix1 b) k = ix2 b k :=
  funext fun a => Fin.ext (by match a with | ⟨0, _⟩ => rfl | ⟨1, _⟩ => rfl)
theorem idx_row6 (b : Fin 16384) (k : Fin 2048) : idx_main_v6 (ix1 b) k = ix2 b k :=
  funext fun a => Fin.ext (by match a with | ⟨0, _⟩ => rfl | ⟨1, _⟩ => rfl)

/-- The contraction's left operand index at output `(b, e)` and contraction coordinate `d`: `(b, d)`. -/
theorem lidx_row (b : Fin 16384) (e d : Fin 2048) : lidx_main_v0 (ix2 b e) d = ix2 b d :=
  funext fun a => Fin.ext (by match a with | ⟨0, _⟩ => rfl | ⟨1, _⟩ => rfl)

/-- The contraction's right operand index there: `(e, d)` — the weight is contracted along its second axis. -/
theorem ridx_row (b : Fin 16384) (e d : Fin 2048) : ridx_main_v0 (ix2 b e) d = ix2 e d :=
  funext fun a => Fin.ext (by match a with | ⟨0, _⟩ => rfl | ⟨1, _⟩ => rfl)

/-- The score stage at `(b, e)` is the score of row `b`. -/
theorem score_apply (x0 : (⟨S16384x2048, .f32⟩ : BufTy).Contents (Elt Ideal)) (x2 : (⟨S2048x2048, .f32⟩ : BufTy).Contents (Elt Ideal))
    (b : Fin 16384) (e : Fin 2048) :
    val_main_v0 (F := Ideal) x0 x2 (ix2 b e) = Cert.Metric.score (fun d => x0 (ix2 b d)) (fun e d => x2 (ix2 e d)) e := by
  rw [val_main_v0_apply]
  unfold Cert.Metric.score
  exact Finset.sum_congr rfl fun d _ => by rw [lidx_row, ridx_row]

/-- The reference's result, stage by stage, is `Metric.metric` of its three arguments. -/
theorem result_eq (x0 x1 : (⟨S16384x2048, .f32⟩ : BufTy).Contents (Elt Ideal)) (x2 : (⟨S2048x2048, .f32⟩ : BufTy).Contents (Elt Ideal)) :
    val_main_v11 (F := Ideal) x0 x1 x2 = Cert.Metric.metric x0 x1 x2 := by
  funext i
  obtain ⟨b, rfl⟩ : ∃ b : Fin 16384, i = ix1 b := ⟨i 0, eq_ix1 i⟩
  rw [val_main_v11_apply, val_main_v10_apply, val_main_v9_apply, val_main_v8_apply, val_main_cst_2_apply, val_main_v7_apply,
    val_main_v6_apply, val_main_v4_apply, val_main_v2_apply, val_main_cst_apply, val_main_cst_0_apply, val_main_cst_1_apply]
  simp only [idx_row2, idx_row4, idx_row6]
  simp only [val_main_v5_apply, val_main_v3_apply, val_main_v1_apply, score_apply, Ideal.ofBits_def, Ideal.ofBits_zero_f32,
    zero_add, Ideal.subf_def, Ideal.hostDivf_def, Ideal.mulf_def, Ideal.addf_def]
  rfl

end Cert.ReferenceIdeal.RefValue

end
-- ==== Proof.lean ====
/-
  The kernel computes, for every row `b` of the batch, the score `s = x[b] · Wᵀ` on the matrix unit from a
  [512, 2048] block of `x` and the host-transposed weight, then `‖v‖² − (s·v)² / (1 + ‖s‖²)` with `v = x_dot[b]`
  from three lane sums; the reference computes the same score by a contraction of the two second axes and the same
  three row sums on the host. On the extended reals a change of float format is the identity, a matrix product into
  the zero accumulator and a contraction are the same finite sum, and a row sum from the initial value `0` is the sum:
  both result arrays are `Metric.metric` of the three arguments (`KernelArray.run`, `RefRow.result_eq`), entry by
  entry, with no algebra beyond `0 + a = a`; the precondition is not used.
-/
import proofs.«104427_j63453846831508_1_alg».proof.Defs
import proofs.«104427_j63453846831508_1_alg».proof.Proof.Gen.Kernel
import proofs.«104427_j63453846831508_1_alg».proof.Proof.Gen.Kernel.Skeleton
import proofs.«104427_j63453846831508_1_alg».proof.Proof.Gen.Kernel.Launch
import proofs.«104427_j63453846831508_1_alg».proof.Proof.Gen.Kernel.Points
import proofs.«104427_j63453846831508_1_alg».proof.Proof.Gen.Kernel.Frame
import proofs.«104427_j63453846831508_1_alg».proof.Proof.Gen.KernelIdeal
import proofs.«104427_j63453846831508_1_alg».proof.Proof.Gen.KernelIdeal.Skeleton
import proofs.«104427_j63453846831508_1_alg».proof.Proof.Gen.KernelIdeal.Launch
import proofs.«104427_j63453846831508_1_alg».proof.Proof.Gen.KernelIdeal.Points
import proofs.«104427_j63453846831508_1_alg».proof.Proof.Gen.KernelIdeal.Frame
import proofs.«104427_j63453846831508_1_alg».proof.Proof.Gen.KernelIdeal.Value
import proofs.«104427_j63453846831508_1_alg».proof.Proof.Gen.ReferenceIdeal
import proofs.«104427_j63453846831508_1_alg».proof.Proof.Gen.ReferenceIdeal.Run
import proofs.«104427_j63453846831508_1_alg».proof.Proof.Gen.ReferenceIdeal.Read
import proofs.«104427_j63453846831508_1_alg».proof.Proof.Gen.Pre_finite_inputs
import proofs.«104427_j63453846831508_1_alg».proof.Proof.Metric
import proofs.«104427_j63453846831508_1_alg».proof.Proof.KernelRow
import proofs.«104427_j63453846831508_1_alg».proof.Proof.KernelArray
import proofs.«104427_j63453846831508_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both result arrays are `Metric.metric` of the argument arrays, which agree. -/
theorem algebraic : Cert.algebraic_KernelIdeal_ReferenceIdeal := by
  intro m ρ m' ρ' _ hagree
  refine ⟨fun c => Cert.Metric.metric (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
